-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x128 : Shape := ⟨2, ![100000, 128]⟩
abbrev S4000x512 : Shape := ⟨2, ![4000, 512]⟩
abbrev S4000x128 : Shape := ⟨2, ![4000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S5000x128 : Shape := ⟨2, ![5000, 128]⟩
abbrev S5000x40 : Shape := ⟨2, ![5000, 40]⟩
abbrev S1600000x40 : Shape := ⟨2, ![1600000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 119
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S100000x40, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000, .f32⟩
  | .hbm, ⟨93, _⟩ => ⟨S1600000, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x40, .f32⟩
  | .hbm, ⟨103, _⟩ => ⟨S1600000x1, .f32⟩
  | .hbm, ⟨104, _⟩ => ⟨S1600000x40, .f32⟩
  | .hbm, ⟨105, _⟩ => ⟨S1600000x40, .f32⟩
  | .hbm, ⟨106, _⟩ => ⟨S_, .f32⟩
  | .hbm, ⟨107, _⟩ => ⟨S100000x40, .f32⟩
  | .hbm, ⟨108, _⟩ => ⟨S1600000x1, .i32⟩
  | .hbm, ⟨109, _⟩ => ⟨S100000x40, .f32⟩
  | .hbm, ⟨110, _⟩ => ⟨S100000, .f32⟩
  | .hbm, ⟨111, _⟩ => ⟨S100000x1, .f32⟩
  | .hbm, ⟨112, _⟩ => ⟨S100000x40, .f32⟩
  | .hbm, ⟨113, _⟩ => ⟨S100000x40, .f32⟩
  | .hbm, ⟨114, _⟩ => ⟨S100000x40, .f32⟩
  | .hbm, ⟨115, _⟩ => ⟨S1x40, .f32⟩
  | .hbm, ⟨116, _⟩ => ⟨S100000x40, .f32⟩
  | .hbm, ⟨117, _⟩ => ⟨S100000x40, .f32⟩
  | .hbm, ⟨118, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S4000x512_S512x128_S4000x128_1_0_0_1_n_n_wf : DotDims.WF S4000x512 S512x128 S4000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v91) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x1, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x40, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x40, .f32⟩
  | 106 => ⟨S1600000x1, .f32⟩
  | 107 => ⟨S1600000x40, .f32⟩
  | 108 => ⟨S1600000x40, .f32⟩
  | 109 => ⟨S_, .f32⟩
  | 110 => ⟨S100000x40, .f32⟩
  | 111 => ⟨S1600000x1, .i32⟩
  | 112 => ⟨S100000x40, .f32⟩
  | 113 => ⟨S100000, .f32⟩
  | 114 => ⟨S100000x1, .f32⟩
  | 115 => ⟨S100000x40, .f32⟩
  | 116 => ⟨S100000x40, .f32⟩
  | 117 => ⟨S100000x40, .f32⟩
  | 118 => ⟨S1x40, .f32⟩
  | 119 => ⟨S100000x40, .f32⟩
  | 120 => ⟨S100000x40, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x40, .f32⟩
  | _ => ⟨S100000x512, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S100000x1, .f32⟩
  | 5 => ⟨S100000x1, .f32⟩
  | 6 => ⟨S100000x40, .f32⟩
  | 7 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x512_S512x128_S100000x128_1_0_0_1_n_n_wf : DotDims.WF S100000x512 S512x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result named.

  @main is three pipelined calls among stretches of host operations. The generated frame follows the TensorCore's buffer
  contents through that sequence as a fold `W0 … W6` from the launch memory: a stretch of host operations applies them
  (`StableHlo.after`), a pipelined call replaces its arrays by what its write-backs leave. The last thread state holds
  every unscoped buffer at `W6`. Here that state is read at the result buffer as well as at the arguments: every weakly
  fair execution terminates with the result array at `W6`'s contents of it and the arguments unchanged.
-/
import proofs.«136058_j21766894256615_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array holding what the fold of the
    buffer contents through @main's segments leaves in it (`W6`), and the argument arrays as launched. -/
theorem run_value : θ_run defs (onTc (τ := τ) (main (F := F))) ⟨m, fun _ => 0, ρ⟩ (fun r => ∀ c : Dev nD,
      r.2.mem ((c.tc : Thread nD τ).loc main_v92) = W6 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v92 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Hand

end
-- ==== Proof.Glue.lean ====
/-
  The host operations between the pipelined calls: one graph-convolution aggregation, twice.

  Between the first and the second call, and again between the second and the third, @main runs the same 53 host operations
  on a feature array H (width 128, then width 40): the in-degree of every node by a scatter-add of ones over the edges'
  destination column, its inverse square root s, the edge coefficient s(src)·s(dst) by two gathers, the messages H(src)·coef
  by a row gather, their sum per destination by a scatter-add, the self-loop term s²·H, and the bias. `glue1` and `glue2`
  name that composite as a function of H, the two rows of the edge array, and the bias; the lemmas say that each stretch of
  host operations, run from ANY buffer contents, leaves exactly that function of the buffers it reads, and does not touch
  the buffers later stretches read.
-/
import proofs.«136058_j21766894256615_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- jnp's reading of a possibly negative node index: i < 0 is read as i + 100000. -/
def wrapIdx (x : (⟨S1600000, .i32⟩ : BufTy).Contents (Elt F)) : (⟨S1600000, .i32⟩ : BufTy).Contents (Elt F) :=
  select (cmpi .slt x (broadcastInDim S1600000 ![] bcast_S_S1600000 (constantI S_ 32 0#32) : (⟨S1600000, .i32⟩ : BufTy).Contents (Elt F)))
    (addi x (broadcastInDim S1600000 ![] bcast_S_S1600000 (constantI S_ 32 100000#32) : (⟨S1600000, .i32⟩ : BufTy).Contents (Elt F))) x

/-- A vector of edge indices as the one-column index array gathers and scatters take. -/
def col (x : (⟨S1600000, .i32⟩ : BufTy).Contents (Elt F)) : (⟨S1600000x1, .i32⟩ : BufTy).Contents (Elt F) :=
  broadcastInDim S1600000x1 ![0] bcast_S1600000_S1600000x1_0 x

/-- The first row of the 2 × 1600000 edge array: the edges' source nodes. -/
def srcOf (E : (⟨S2x1600000, .i32⟩ : BufTy).Contents (Elt F)) : (⟨S1600000, .i32⟩ : BufTy).Contents (Elt F) :=
  shapeCast S1600000 (extractStridedSlice S1x1600000 ![0, 0] E slices_S2x1600000_S1x1600000_0_0) shapeCasts_S1x1600000_S1600000

/-- Its second row: the edges' destination nodes. -/
def dstOf (E : (⟨S2x1600000, .i32⟩ : BufTy).Contents (Elt F)) : (⟨S1600000, .i32⟩ : BufTy).Contents (Elt F) :=
  shapeCast S1600000 (extractStridedSlice S1x1600000 ![1, 0] E slices_S2x1600000_S1x1600000_1_0) shapeCasts_S1x1600000_S1600000

/-- s = (1 + in-degree)^(-1/2): ones scatter-added over the destination column into zeros, plus one, inverse square root. -/
def invSqrtDeg (dst : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32)) (col dst)
      (broadcastInDim S1600000 ![] bcast_S_S1600000 (constant S_ .f32 0x3F800000#32)))
    (broadcastInDim S100000 ![] bcast_S_S100000 (constant S_ .f32 0x3F800000#32)))

/-- One graph-convolution aggregation over a width-128 feature array `H`, as the host computes it: with
    deg(v) = 1 + #{edges into v} and s = deg^(-1/2), row v of the result is
    Σ_{edges e into v} s(src e)·s(dst e)·H(src e) + s(v)²·H(v) + b. Edge endpoints are read with jnp's wrap-around of a
    negative index; the edge sums are scatter-adds over the destination column. -/
def glue1 (H : (⟨S100000x128, .f32⟩ : BufTy).Contents (Elt F)) (src dst : (⟨S1600000, .i32⟩ : BufTy).Contents (Elt F))
    (b : (⟨S128, .f32⟩ : BufTy).Contents (Elt F)) : (⟨S100000x128, .f32⟩ : BufTy).Contents (Elt F) :=
  let s : (⟨S100000, .f32⟩ : BufTy).Contents (Elt F) := invSqrtDeg dst
  let coef : (⟨S1600000, .f32⟩ : BufTy).Contents (Elt F) :=
    mulf (Host.gather gather_S100000_S1600000x1_S1600000_n_0_n_n_0_1_1 s (col (wrapIdx src)))
      (Host.gather gather_S100000_S1600000x1_S1600000_n_0_n_n_0_1_1 s (col (wrapIdx dst)))
  let msgs : (⟨S1600000x128, .f32⟩ : BufTy).Contents (Elt F) :=
    mulf (Host.gather gather_S100000x128_S1600000x1_S1600000x128_1_0_n_n_0_1_1128 H (col (wrapIdx src)))
      (broadcastInDim S1600000x128 ![0, 1] bcast_S1600000x1_S1600000x128_0_1
        ((broadcastInDim S1600000x1 ![0] bcast_S1600000_S1600000x1_0 coef : (⟨S1600000x1, .f32⟩ : BufTy).Contents (Elt F))))
  let agg : (⟨S100000x128, .f32⟩ : BufTy).Contents (Elt F) :=
    Host.scatterAdd scatter_S100000x128_S1600000x1_S1600000x128_1_0_0_1
      (broadcastInDim S100000x128 ![] bcast_S_S100000x128 (constant S_ .f32 0x00000000#32)) (col dst) msgs
  let self : (⟨S100000x128, .f32⟩ : BufTy).Contents (Elt F) :=
    mulf H (broadcastInDim S100000x128 ![0, 1] bcast_S100000x1_S100000x128_0_1
      ((broadcastInDim S100000x1 ![0] bcast_S100000_S100000x1_0 (mulf s s) : (⟨S100000x1, .f32⟩ : BufTy).Contents (Elt F))))
  addf (addf agg self)
    (broadcastInDim S100000x128 ![0, 1] bcast_S1x128_S100000x128_0_1
      ((broadcastInDim S1x128 ![1] bcast_S128_S1x128_1 b : (⟨S1x128, .f32⟩ : BufTy).Contents (Elt F))))

/-- One graph-convolution aggregation over a width-40 feature array `H`, as the host computes it: with
    deg(v) = 1 + #{edges into v} and s = deg^(-1/2), row v of the result is
    Σ_{edges e into v} s(src e)·s(dst e)·H(src e) + s(v)²·H(v) + b. Edge endpoints are read with jnp's wrap-around of a
    negative index; the edge sums are scatter-adds over the destination column. -/
def glue2 (H : (⟨S100000x40, .f32⟩ : BufTy).Contents (Elt F)) (src dst : (⟨S1600000, .i32⟩ : BufTy).Contents (Elt F))
    (b : (⟨S40, .f32⟩ : BufTy).Contents (Elt F)) : (⟨S100000x40, .f32⟩ : BufTy).Contents (Elt F) :=
  let s : (⟨S100000, .f32⟩ : BufTy).Contents (Elt F) := invSqrtDeg dst
  let coef : (⟨S1600000, .f32⟩ : BufTy).Contents (Elt F) :=
    mulf (Host.gather gather_S100000_S1600000x1_S1600000_n_0_n_n_0_1_1 s (col (wrapIdx src)))
      (Host.gather gather_S100000_S1600000x1_S1600000_n_0_n_n_0_1_1 s (col (wrapIdx dst)))
  let msgs : (⟨S1600000x40, .f32⟩ : BufTy).Contents (Elt F) :=
    mulf (Host.gather gather_S100000x40_S1600000x1_S1600000x40_1_0_n_n_0_1_140 H (col (wrapIdx src)))
      (broadcastInDim S1600000x40 ![0, 1] bcast_S1600000x1_S1600000x40_0_1
        ((broadcastInDim S1600000x1 ![0] bcast_S1600000_S1600000x1_0 coef : (⟨S1600000x1, .f32⟩ : BufTy).Contents (Elt F))))
  let agg : (⟨S100000x40, .f32⟩ : BufTy).Contents (Elt F) :=
    Host.scatterAdd scatter_S100000x40_S1600000x1_S1600000x40_1_0_0_1
      (broadcastInDim S100000x40 ![] bcast_S_S100000x40 (constant S_ .f32 0x00000000#32)) (col dst) msgs
  let self : (⟨S100000x40, .f32⟩ : BufTy).Contents (Elt F) :=
    mulf H (broadcastInDim S100000x40 ![0, 1] bcast_S100000x1_S100000x40_0_1
      ((broadcastInDim S100000x1 ![0] bcast_S100000_S100000x1_0 (mulf s s) : (⟨S100000x1, .f32⟩ : BufTy).Contents (Elt F))))
  addf (addf agg self)
    (broadcastInDim S100000x40 ![0, 1] bcast_S1x40_S100000x40_0_1
      ((broadcastInDim S1x40 ![1] bcast_S40_S1x40_1 b : (⟨S1x40, .f32⟩ : BufTy).Contents (Elt F))))

section Kernel

variable (V : Valuation τ sig (Elt F))

/-- The stretch before the first call leaves the edge array's two rows in `%1` and `%3`, and keeps the arguments. -/
theorem hostOps0_v1 : StableHlo.after (hostOps0 (F := F)) V (Proc.devRef .tc main_v1) = srcOf (V (Proc.devRef .tc main_arg1)) := by
  after_results_simp <;> rfl
theorem hostOps0_v3 : StableHlo.after (hostOps0 (F := F)) V (Proc.devRef .tc main_v3) = dstOf (V (Proc.devRef .tc main_arg1)) := by
  after_results_simp <;> rfl
theorem hostOps0_keep_arg0 : StableHlo.after (hostOps0 (F := F)) V (Proc.devRef .tc main_arg0) = V (Proc.devRef .tc main_arg0) := by
  after_results_simp <;> rfl
theorem hostOps0_keep_arg2 : StableHlo.after (hostOps0 (F := F)) V (Proc.devRef .tc main_arg2) = V (Proc.devRef .tc main_arg2) := by
  after_results_simp <;> rfl
theorem hostOps0_keep_arg3 : StableHlo.after (hostOps0 (F := F)) V (Proc.devRef .tc main_arg3) = V (Proc.devRef .tc main_arg3) := by
  after_results_simp <;> rfl
theorem hostOps0_keep_arg4 : StableHlo.after (hostOps0 (F := F)) V (Proc.devRef .tc main_arg4) = V (Proc.devRef .tc main_arg4) := by
  after_results_simp <;> rfl
theorem hostOps0_keep_arg5 : StableHlo.after (hostOps0 (F := F)) V (Proc.devRef .tc main_arg5) = V (Proc.devRef .tc main_arg5) := by
  after_results_simp <;> rfl

set_option maxHeartbeats 8000000 in
/-- The stretch between the first and the second call leaves `glue1` of the buffers it reads in `%47`. -/
theorem hostOps1_v47 : StableHlo.after (hostOps1 (F := F)) V (Proc.devRef .tc main_v47)
    = glue1 (V (Proc.devRef .tc main_v4)) (V (Proc.devRef .tc main_v1)) (V (Proc.devRef .tc main_v3)) (V (Proc.devRef .tc main_arg3)) := by
  after_results_simp
  rfl
set_option maxHeartbeats 8000000 in
theorem hostOps1_keep_v1 : StableHlo.after (hostOps1 (F := F)) V (Proc.devRef .tc main_v1) = V (Proc.devRef .tc main_v1) := by
  after_results_simp <;> rfl
set_option maxHeartbeats 8000000 in
theorem hostOps1_keep_v3 : StableHlo.after (hostOps1 (F := F)) V (Proc.devRef .tc main_v3) = V (Proc.devRef .tc main_v3) := by
  after_results_simp <;> rfl
set_option maxHeartbeats 8000000 in
theorem hostOps1_keep_arg4 : StableHlo.after (hostOps1 (F := F)) V (Proc.devRef .tc main_arg4) = V (Proc.devRef .tc main_arg4) := by
  after_results_simp <;> rfl
set_option maxHeartbeats 8000000 in
theorem hostOps1_keep_arg5 : StableHlo.after (hostOps1 (F := F)) V (Proc.devRef .tc main_arg5) = V (Proc.devRef .tc main_arg5) := by
  after_results_simp <;> rfl

set_option maxHeartbeats 8000000 in
/-- The stretch between the second and the third call leaves `glue2` of the buffers it reads in `%91`. -/
theorem hostOps2_v91 : StableHlo.after (hostOps2 (F := F)) V (Proc.devRef .tc main_v91)
    = glue2 (V (Proc.devRef .tc main_v48)) (V (Proc.devRef .tc main_v1)) (V (Proc.devRef .tc main_v3)) (V (Proc.devRef .tc main_arg5)) := by
  after_results_simp
  rfl

end Kernel

end Cert.KernelIdeal.Hand

end
-- ==== Proof.LibRowwise.lean ====
/-
  The mathematics of the two programs, index by index, over the extended reals.

  Both programs compute a two-layer graph convolution followed by a row-wise log-softmax. Three pieces of it are computed
  differently by the two sides (in tiles by the one, whole by the other) and are named here as functions of whole arrays:

  * `mm X Y`, the matrix product: entry (r, c) is the sum over k of X(r, k) · Y(k, c);
  * `relu X`: every entry replaced by its maximum with zero;
  * `lsm X`, the row-wise log-softmax: entry (r, c) is (X(r, c) − μ_r) − log Σ_k exp (X(r, k) − μ_r), where μ_r is the largest
    entry of row r (the maximum taken from −∞).

  An entry of `mm X Y` depends on one row of X and one column of Y, and an entry of `lsm X` on one row of X: that is what
  lets a tile of the result be computed from a tile of the operand (`mm_congr`, `lsm_congr`).
-/
import Idealize.ShloMosaic.PureOps.Ideal
import Idealize.ShloMosaic.Lib.ValueIdx

noncomputable section

namespace Cert.Spec

open Idealize.ShloMosaic Idealize.ShloMosaic.ValueIdx

/-- The matrix product of an M × K and a K × N array. -/
def mm {M K N : ℕ} (X : (⟨2, ![M, K]⟩ : Shape).Idx → EReal) (Y : (⟨2, ![K, N]⟩ : Shape).Idx → EReal) :
    (⟨2, ![M, N]⟩ : Shape).Idx → EReal :=
  fun j => ∑ k : Fin K, X (ix2 ⟨(j 0).val, idx2_lt0 j⟩ k) * Y (ix2 k ⟨(j 1).val, idx2_lt1 j⟩)

theorem mm_ix2 {M K N : ℕ} (X : (⟨2, ![M, K]⟩ : Shape).Idx → EReal) (Y : (⟨2, ![K, N]⟩ : Shape).Idx → EReal)
    (r : Fin M) (c : Fin N) : mm X Y (ix2 r c) = ∑ k : Fin K, X (ix2 r k) * Y (ix2 k c) := rfl

/-- An entry of a product is determined by one row of the left factor and one column of the right one. -/
theorem mm_congr {M M' K N N' : ℕ} {X : (⟨2, ![M, K]⟩ : Shape).Idx → EReal} {Y : (⟨2, ![K, N]⟩ : Shape).Idx → EReal}
    {X' : (⟨2, ![M', K]⟩ : Shape).Idx → EReal} {Y' : (⟨2, ![K, N']⟩ : Shape).Idx → EReal}
    {r : Fin M} {c : Fin N} {r' : Fin M'} {c' : Fin N'}
    (hX : ∀ k, X (ix2 r k) = X' (ix2 r' k)) (hY : ∀ k, Y (ix2 k c) = Y' (ix2 k c')) :
    mm X Y (ix2 r c) = mm X' Y' (ix2 r' c') := by
  rw [mm_ix2, mm_ix2]
  exact Finset.sum_congr rfl fun k _ => by rw [hX k, hY k]

/-- Every entry replaced by its maximum with zero (the zero spelt by its single-precision pattern). -/
def relu {s : Shape} (X : s.Idx → EReal) : s.Idx → EReal := fun i => max (X i) (Ideal.ofBits .f32 0x00000000#32)

/-- The largest entry of a row, the maximum taken from −∞ (spelt by its single-precision pattern). -/
def rowMax {M N : ℕ} (X : (⟨2, ![M, N]⟩ : Shape).Idx → EReal) (r : Fin M) : EReal :=
  (Finset.univ : Finset (Fin N)).fold max (Ideal.ofBits .f32 0xFF800000#32) (fun k => X (ix2 r k))

/-- The row-wise log-softmax. -/
def lsm {M N : ℕ} (X : (⟨2, ![M, N]⟩ : Shape).Idx → EReal) : (⟨2, ![M, N]⟩ : Shape).Idx → EReal :=
  fun j => (X j - rowMax X ⟨(j 0).val, idx2_lt0 j⟩)
    - Ideal.log (∑ k : Fin N, Ideal.exp (X (ix2 ⟨(j 0).val, idx2_lt0 j⟩ k) - rowMax X ⟨(j 0).val, idx2_lt0 j⟩))

theorem lsm_ix2 {M N : ℕ} (X : (⟨2, ![M, N]⟩ : Shape).Idx → EReal) (r : Fin M) (c : Fin N) :
    lsm X (ix2 r c) = (X (ix2 r c) - rowMax X r) - Ideal.log (∑ k : Fin N, Ideal.exp (X (ix2 r k) - rowMax X r)) := rfl

theorem rowMax_congr {M M' N : ℕ} {X : (⟨2, ![M, N]⟩ : Shape).Idx → EReal} {X' : (⟨2, ![M', N]⟩ : Shape).Idx → EReal}
    {r : Fin M} {r' : Fin M'} (hX : ∀ k, X (ix2 r k) = X' (ix2 r' k)) : rowMax X r = rowMax X' r' := by
  unfold rowMax
  rw [show (fun k => X (ix2 r k)) = fun k => X' (ix2 r' k) from funext hX]

/-- An entry of the log-softmax is determined by its row. -/
theorem lsm_congr {M M' N : ℕ} {X : (⟨2, ![M, N]⟩ : Shape).Idx → EReal} {X' : (⟨2, ![M', N]⟩ : Shape).Idx → EReal}
    {r : Fin M} {r' : Fin M'} (c : Fin N) (hX : ∀ k, X (ix2 r k) = X' (ix2 r' k)) :
    lsm X (ix2 r c) = lsm X' (ix2 r' c) := by
  rw [lsm_ix2, lsm_ix2, rowMax_congr hX, hX c]
  exact congrArg _ (congrArg _ (Finset.sum_congr rfl fun k _ => by rw [hX k]))

/-- The maximum from −∞ of a row does not change when it is taken against −∞ once more. -/
theorem max_init_rowMax {M N : ℕ} (X : (⟨2, ![M, N]⟩ : Shape).Idx → EReal) (r : Fin M) :
    max (Ideal.ofBits .f32 0xFF800000#32) (rowMax X r) = rowMax X r :=
  max_eq_right (Finset.le_fold_max (Ideal.ofBits .f32 0xFF800000#32) |>.mpr (Or.inl le_rfl))

end Cert.Spec

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.Region0.lean ====
/-
  The first pipelined call: a 100000 × 512 array times a 512 × 128 weight, 4000 rows per grid point.

  At grid point t the body loads rows 4000·t … 4000·t + 3999 of the left operand and the whole weight, multiplies them
  (both narrowed to bfloat16 first, which at exact values changes nothing) into a zero accumulator, and stores the 4000 × 128
  product, which the pipeline writes back as rows 4000·t … of the result. An entry of a matrix product depends on one
  row of the left factor only, so the block written back is the corresponding block of the product of the WHOLE arrays;
  the 25 blocks tile the result, hence the result array ends holding that product.
  Stated for any contents `V` of the buffers at the call's entry.
-/
import proofs.«136058_j21766894256615_1_alg».proof.Proof.Gen.KernelIdeal.Frame
import proofs.«136058_j21766894256615_1_alg».proof.Proof.LibRowwise
import proofs.«136058_j21766894256615_1_alg».proof.Proof.LibPlainDot
import Idealize.ShloMosaic.Lib.Pipeline.Value
import Idealize.ShloMosaic.Lib.ValueIdx

set_option maxRecDepth 16384

noncomputable section

namespace Cert.KernelIdeal.Hand.R0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored value at an entry: the product of the loaded blocks there. -/
theorem pay_apply (x0 : Vec Ideal S4000x512 .f32) (x1 : Vec Ideal S512x128 .f32) (p : Fin 4000) (q : Fin 128) :
    k0_pay1 (F := Ideal) x0 x1 (ix2 p q) = Spec.mm x0 x1 (ix2 p q) := by
  unfold k0_pay1
  exact PlainDot.matmul_apply_ix2 none (truncf .bf16 x0 bitsLt_bf16_f32) (truncf .bf16 x1 bitsLt_bf16_f32) p q

/-- The index maps over the grid: the row-block index is the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 4000·t … of its array. -/
theorem iblk_left (c : Dev nD) (t : Fin cfg0.N) (p : Fin 4000) (k : Fin 512) (r : Fin 100000) (hr : r.val = 4000 * t.val + p.val) :
    (iblk0 V c 0 t : S4000x512.Idx → EReal) (ix2 p k) = (V c main_arg0 : S100000x512.Idx → EReal) (ix2 r k) := by
  obtain ⟨e0, e1, -⟩ := idx_facts t
  unfold iblk0
  rw [View.read_apply]
  show (V c main_arg0 : S100000x512.Idx → EReal) _ = _
  refine congrArg (V c main_arg0 : S100000x512.Idx → EReal) ?_
  funext a
  apply Fin.ext
  match a with
  | ⟨0, _⟩ => show win0_0.index t (0 : Fin 2) * 4000 + 1 * p.val = r.val; rw [e0, hr]; omega
  | ⟨1, _⟩ => show win0_0.index t (1 : Fin 2) * 512 + 1 * k.val = k.val; rw [e1]; omega

/-- The weight's block at every point is the whole weight. -/
theorem iblk_right (c : Dev nD) (t : Fin cfg0.N) (k : Fin 512) (q : Fin 128) :
    (iblk0 V c 1 t : S512x128.Idx → EReal) (ix2 k q) = (V c main_arg2 : S512x128.Idx → EReal) (ix2 k q) := by
  obtain ⟨-, -, e2, e3, -⟩ := idx_facts t
  unfold iblk0
  rw [View.read_apply]
  show (V c main_arg2 : S512x128.Idx → EReal) _ = _
  refine congrArg (V c main_arg2 : S512x128.Idx → EReal) ?_
  funext a
  apply Fin.ext
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- WHAT POINT t WRITES BACK is block t of the product of the whole arrays. -/
theorem flushed_eq (c : Dev nD) (t : Fin cfg0.N) :
    (dat0 V c).flushed 2 t = ((cfg0.win 2).blk t).view.read (Elt Ideal)
      (Spec.mm (V c main_arg0 : S100000x512.Idx → EReal) (V c main_arg2 : S512x128.Idx → EReal)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x128) hz]
  obtain ⟨-, -, -, -, e4, e5⟩ := idx_facts t
  have hN : cfg0.N = 25 := N_0
  have ht : t.val < 25 := hN ▸ t.isLt
  funext j
  obtain ⟨p, q, rfl⟩ : ∃ (p : Fin 4000) (q : Fin 128), j = ix2 p q := ⟨j 0, j 1, eq_ix2 j⟩
  rw [View.read_apply]
  have hemb : ((cfg0.win 2).blk t).view.emb (ix2 p q) = (ix2 (⟨4000 * t.val + p.val, by omega⟩ : Fin 100000) q : S100000x128.Idx) := by
    funext a
    apply Fin.ext
    match a with
    | ⟨0, _⟩ => show win0_2.index t (0 : Fin 2) * 4000 + 1 * p.val = 4000 * t.val + p.val; rw [e4]; omega
    | ⟨1, _⟩ => show win0_2.index t (1 : Fin 2) * 128 + 1 * q.val = q.val; rw [e5]; omega
  rw [hemb]
  refine (pay_apply (iblk0 V c 0 t) (iblk0 V c 1 t) p q).trans ?_
  exact Spec.mm_congr (fun k => iblk_left V c t p k _ rfl) (fun k => iblk_right V c t k q)

/-- An index of the result is in point t's block iff each coordinate is in the block's range. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v4).slice (win0_2.rect t)).set ↔ _
  rw [View.set_slice_whole, Rect.mem_set_unit]
  exact Iff.rfl

/-- THE RESULT ARRAY after the call: the product of the arrays the call found. -/
theorem final (c : Dev nD) : (dat0 V c).arrAt 2 cfg0.N
    = Spec.mm (V c main_arg0 : S100000x512.Idx → EReal) (V c main_arg2 : S512x128.Idx → EReal) :=
  (dat0 V c).arrAt_eq_of_cover 2 _ (fun t _ => flushed_eq V c t) fun i => by
    have hN : cfg0.N = 25 := N_0
    have hi0 : (i 0).val < 100000 := (i 0).isLt
    have hi1 : (i 1).val < 128 := (i 1).isLt
    let t : Fin cfg0.N := ⟨(i 0).val / 4000, by rw [hN]; omega⟩
    obtain ⟨-, -, -, -, e4, e5⟩ := idx_facts t
    have htv : t.val = (i 0).val / 4000 := rfl
    refine ⟨t, flush0_2 t, ?_⟩
    rw [mem_blk]
    intro a
    match a with
    | ⟨0, _⟩ => show win0_2.index t (0 : Fin 2) * 4000 ≤ (i 0).val ∧ (i 0).val < win0_2.index t (0 : Fin 2) * 4000 + 4000; rw [e4, htv]; omega
    | ⟨1, _⟩ => show win0_2.index t (1 : Fin 2) * 128 ≤ (i 1).val ∧ (i 1).val < win0_2.index t (1 : Fin 2) * 128 + 128; rw [e5]; omega

end Cert.KernelIdeal.Hand.R0

end
-- ==== Proof.Region1.lean ====
/-
  The second pipelined call: the relu of a 100000 × 128 array times a 128 × 40 weight, 5000 rows per grid point.

  At grid point t the body loads rows 5000·t … 5000·t + 4999 of the left operand and the whole weight, replaces the negative
  entries of the rows by zero, multiplies (both factors narrowed to bfloat16 first, which at exact values changes nothing)
  into a zero accumulator, and stores the 5000 × 40 product, written back as rows 5000·t … of the result. The relu acts
  entry by entry and an entry of a product depends on one row of the left factor, so the block written back is the
  corresponding block of (relu of the WHOLE left array) times the weight; the 20 blocks tile the result.
  Stated for any contents `V` of the buffers at the call's entry.
-/
import proofs.«136058_j21766894256615_1_alg».proof.Proof.Gen.KernelIdeal.Frame
import proofs.«136058_j21766894256615_1_alg».proof.Proof.LibRowwise
import proofs.«136058_j21766894256615_1_alg».proof.Proof.LibPlainDot
import Idealize.ShloMosaic.Lib.Pipeline.Value
import Idealize.ShloMosaic.Lib.ValueIdx

set_option maxRecDepth 16384

noncomputable section

namespace Cert.KernelIdeal.Hand.R1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored value at an entry: the product of the relu of the loaded rows with the loaded weight there. -/
theorem pay_apply (x0 : Vec Ideal S5000x128 .f32) (x1 : Vec Ideal S128x40 .f32) (p : Fin 5000) (q : Fin 40) :
    k1_pay1 (F := Ideal) x0 x1 (ix2 p q) = Spec.mm (Spec.relu x0) x1 (ix2 p q) := by
  unfold k1_pay1
  refine (PlainDot.matmul_apply_ix2 none _ _ p q).trans ?_
  rw [Spec.mm_ix2]
  refine Finset.sum_congr rfl fun k _ => ?_
  show max (shapeCast S5000x128 x0 shapeCasts_S5000x128_S5000x128 (ix2 p k)) _ * _ = max (x0 (ix2 p k)) _ * _
  rw [shapeCast_self]
  rfl

/-- The index maps over the grid: the row-block index is the point, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000·t … of its array. -/
theorem iblk_left (c : Dev nD) (t : Fin cfg1.N) (p : Fin 5000) (k : Fin 128) (r : Fin 100000) (hr : r.val = 5000 * t.val + p.val) :
    (iblk1 V c 0 t : S5000x128.Idx → EReal) (ix2 p k) = (V c main_v47 : S100000x128.Idx → EReal) (ix2 r k) := by
  obtain ⟨e0, e1, -⟩ := idx_facts t
  unfold iblk1
  rw [View.read_apply]
  show (V c main_v47 : S100000x128.Idx → EReal) _ = _
  refine congrArg (V c main_v47 : S100000x128.Idx → EReal) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weight's block at every point is the whole weight. -/
theorem iblk_right (c : Dev nD) (t : Fin cfg1.N) (k : Fin 128) (q : Fin 40) :
    (iblk1 V c 1 t : S128x40.Idx → EReal) (ix2 k q) = (V c main_arg4 : S128x40.Idx → EReal) (ix2 k q) := by
  obtain ⟨-, -, e2, e3, -⟩ := idx_facts t
  unfold iblk1
  rw [View.read_apply]
  show (V c main_arg4 : S128x40.Idx → EReal) _ = _
  refine congrArg (V c main_arg4 : S128x40.Idx → EReal) ?_
  funext a
  apply Fin.ext
  match a with
  | ⟨0, _⟩ => show win1_1.index t (0 : Fin 2) * 128 + 1 * k.val = k.val; rw [e2]; omega
  | ⟨1, _⟩ => show win1_1.index t (1 : Fin 2) * 40 + 1 * q.val = q.val; rw [e3]; omega

/-- WHAT POINT t WRITES BACK is block t of (relu of the whole left array) times the weight. -/
theorem flushed_eq (c : Dev nD) (t : Fin cfg1.N) :
    (dat1 V c).flushed 2 t = ((cfg1.win 2).blk t).view.read (Elt Ideal)
      (Spec.mm (Spec.relu (V c main_v47 : S100000x128.Idx → EReal)) (V c main_arg4 : S128x40.Idx → EReal)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x40) hz]
  obtain ⟨-, -, -, -, e4, e5⟩ := idx_facts t
  have hN : cfg1.N = 20 := N_1
  have ht : t.val < 20 := hN ▸ t.isLt
  funext j
  obtain ⟨p, q, rfl⟩ : ∃ (p : Fin 5000) (q : Fin 40), j = ix2 p q := ⟨j 0, j 1, eq_ix2 j⟩
  rw [View.read_apply]
  have hemb : ((cfg1.win 2).blk t).view.emb (ix2 p q) = (ix2 (⟨5000 * t.val + p.val, by omega⟩ : Fin 100000) q : S100000x40.Idx) := by
    funext a
    apply Fin.ext
    match a with
    | ⟨0, _⟩ => show win1_2.index t (0 : Fin 2) * 5000 + 1 * p.val = 5000 * t.val + p.val; rw [e4]; omega
    | ⟨1, _⟩ => show win1_2.index t (1 : Fin 2) * 40 + 1 * q.val = q.val; rw [e5]; omega
  rw [hemb]
  refine (pay_apply (iblk1 V c 0 t) (iblk1 V c 1 t) p q).trans ?_
  exact Spec.mm_congr (fun k => congrArg (fun x => max x (Ideal.ofBits .f32 0x00000000#32)) (iblk_left V c t p k _ rfl))
    (fun k => iblk_right V c t k q)

/-- An index of the result is in point t's block iff each coordinate is in the block's range. -/
theorem mem_blk (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v48).slice (win1_2.rect t)).set ↔ _
  rw [View.set_slice_whole, Rect.mem_set_unit]
  exact Iff.rfl

/-- THE RESULT ARRAY after the call: (relu of the left array the call found) times the weight. -/
theorem final (c : Dev nD) : (dat1 V c).arrAt 2 cfg1.N
    = Spec.mm (Spec.relu (V c main_v47 : S100000x128.Idx → EReal)) (V c main_arg4 : S128x40.Idx → EReal) :=
  (dat1 V c).arrAt_eq_of_cover 2 _ (fun t _ => flushed_eq V c t) fun i => by
    have hN : cfg1.N = 20 := N_1
    have hi0 : (i 0).val < 100000 := (i 0).isLt
    have hi1 : (i 1).val < 40 := (i 1).isLt
    let t : Fin cfg1.N := ⟨(i 0).val / 5000, by rw [hN]; omega⟩
    obtain ⟨-, -, -, -, e4, e5⟩ := idx_facts t
    have htv : t.val = (i 0).val / 5000 := rfl
    refine ⟨t, flush1_2 t, ?_⟩
    rw [mem_blk]
    intro a
    match a with
    | ⟨0, _⟩ => show win1_2.index t (0 : Fin 2) * 5000 ≤ (i 0).val ∧ (i 0).val < win1_2.index t (0 : Fin 2) * 5000 + 5000; rw [e4, htv]; omega
    | ⟨1, _⟩ => show win1_2.index t (1 : Fin 2) * 40 ≤ (i 1).val ∧ (i 1).val < win1_2.index t (1 : Fin 2) * 40 + 40; rw [e5]; omega

end Cert.KernelIdeal.Hand.R1

end
-- ==== Proof.LibKeepdims.lean ====
/-
  Layout operations of a row-reduced block, read at an index by coordinates.

  A kernel that reduces an [a, b] block along its rows and uses the result against the block again (a row maximum
  subtracted, a row sum divided by) passes it through three re-layings: the reduced vector [a] is cast to a column
  [a, 1], and the column is broadcast back over the b lanes to [a, b]. A pipelined block of a rank-4 array with two
  leading unit axes is cast to the matrix [a, b] it holds, and a matrix result is cast back. Each lemma reads one of
  these at an index written by its coordinates; none depends on a program.
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes to [a, b] reads, at (i, j), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A block [1, 1, a, b] cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- A matrix [a, b] cast to the block [1, 1, a, b] reads, at (u, w, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

end Idealize.ShloMosaic.Keepdims

end
-- ==== Proof.Region2.lean ====
/-
  The third pipelined call: the row-wise log-softmax of a 100000 × 40 array, 5000 rows per grid point.

  At grid point t the body loads rows 5000·t … 5000·t + 4999 of its operand; takes each row's maximum (from −∞), kept as a
  column and spread back over the 40 lanes; subtracts it; exponentiates; sums each row, kept as a column; takes the
  logarithm; spreads it back; subtracts. So the entry stored at (p, q) is the log-softmax entry of the loaded block there,
  and as that depends on row p only, the block written back is the corresponding block of the log-softmax of the WHOLE
  array; the 20 blocks tile the result.
  Stated for any contents `V` of the buffers at the call's entry.
-/
import proofs.«136058_j21766894256615_1_alg».proof.Proof.Gen.KernelIdeal.Frame
import proofs.«136058_j21766894256615_1_alg».proof.Proof.LibRowwise
import proofs.«136058_j21766894256615_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Hand.R2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index of a block's row p with the lane k put back is (p, k). -/
theorem lift_eq (p : Fin 5000) (k : Fin 40) : reduces_S5000x40_S5000.lift (ix1 p) k = (ix2 p k : S5000x40.Idx) := by
  funext a
  apply Fin.ext
  match a with
  | ⟨0, _⟩ => rfl
  | ⟨1, _⟩ => rfl

/-- A block's lane maximum at row p is that row's largest entry, from −∞. -/
theorem rowmax_blk (x : FVec Ideal S5000x40 .f32) (p : Fin 5000) :
    multiReduction .maximumf [1] S5000 x 0xFF800000#32 reduces_S5000x40_S5000 (.inl rfl) rfl (ix1 p) = Spec.rowMax x p := by
  refine (Ideal.multiReduction_maximumf_single x 0xFF800000#32 reduces_S5000x40_S5000 (.inl rfl) rfl (ix1 p)).trans ?_
  unfold Spec.rowMax
  rw [show (x ∘ reduces_S5000x40_S5000.lift (ix1 p)) = (fun k : Fin 40 => x (ix2 p k)) from funext fun k => congrArg x (lift_eq p k)]
  rfl

/-- A block's lane sum at row p is the sum of that row. -/
theorem rowsum_blk (x : FVec Ideal S5000x40 .f32) (p : Fin 5000) :
    multiReduction .add [1] S5000 x 0x00000000#32 reduces_S5000x40_S5000 (.inl rfl) rfl (ix1 p) = ∑ k : Fin 40, x (ix2 p k) := by
  refine (Ideal.multiReduction_add_single x 0x00000000#32 reduces_S5000x40_S5000 (.inl rfl) rfl (ix1 p)).trans ?_
  exact Finset.sum_congr rfl fun k _ => congrArg x (lift_eq p k)

/-- The row maximum kept as a column and spread over the lanes reads, at (p, q), row p's maximum. -/
theorem spread_max (x : FVec Ideal S5000x40 .f32) (p : Fin 5000) (q : Fin 40) :
    broadcastTo S5000x40 (shapeCast S5000x1 (multiReduction .maximumf [1] S5000 x 0xFF800000#32 reduces_S5000x40_S5000 (.inl rfl) rfl)
      shapeCasts_S5000_S5000x1) broadcasts_S5000x1_S5000x40 (ix2 p q) = Spec.rowMax x p := by
  refine (Keepdims.broadcastTo_a1_ab_apply _ broadcasts_S5000x1_S5000x40 p q).trans ?_
  refine (Keepdims.shapeCast_a_a1_apply _ shapeCasts_S5000_S5000x1 p (0 : Fin 1)).trans ?_
  exact rowmax_blk x p

/-- The logarithm of the row sum kept as a column and spread over the lanes reads, at (p, q), the logarithm of row p's sum. -/
theorem spread_logsum (y : FVec Ideal S5000x40 .f32) (p : Fin 5000) (q : Fin 40) :
    broadcastTo S5000x40 (log (shapeCast S5000x1 (multiReduction .add [1] S5000 y 0x00000000#32 reduces_S5000x40_S5000 (.inl rfl) rfl)
      shapeCasts_S5000_S5000x1)) broadcasts_S5000x1_S5000x40 (ix2 p q) = Ideal.log (∑ k : Fin 40, y (ix2 p k)) := by
  refine (Keepdims.broadcastTo_a1_ab_apply _ broadcasts_S5000x1_S5000x40 p q).trans ?_
  show Ideal.log (shapeCast S5000x1 (multiReduction .add [1] S5000 y 0x00000000#32 reduces_S5000x40_S5000 (.inl rfl) rfl)
      shapeCasts_S5000_S5000x1 (ix2 p (0 : Fin 1))) = _
  refine congrArg Ideal.log ?_
  refine (Keepdims.shapeCast_a_a1_apply _ shapeCasts_S5000_S5000x1 p (0 : Fin 1)).trans ?_
  exact rowsum_blk y p

/-- The stored value at an entry: the log-softmax entry of the loaded block. -/
theorem pay_apply (x0 : Vec Ideal S5000x40 .f32) (p : Fin 5000) (q : Fin 40) :
    k2_pay1 (F := Ideal) x0 (ix2 p q) = Spec.lsm x0 (ix2 p q) := by
  unfold k2_pay1
  dsimp only
  rw [shapeCast_self]
  rw [Spec.lsm_ix2]
  show (x0 (ix2 p q) - broadcastTo S5000x40 _ broadcasts_S5000x1_S5000x40 (ix2 p q))
      - broadcastTo S5000x40 _ broadcasts_S5000x1_S5000x40 (ix2 p q) = _
  rw [spread_max x0 p q, spread_logsum _ p q]
  refine congrArg (fun z => (x0 (ix2 p q) - Spec.rowMax x0 p) - Ideal.log z) ?_
  refine Finset.sum_congr rfl fun k _ => ?_
  show Ideal.exp (x0 (ix2 p k) - broadcastTo S5000x40 _ broadcasts_S5000x1_S5000x40 (ix2 p k)) = _
  rw [spread_max x0 p k]

/-- The index maps over the grid: the row-block index is the point, the lane-block index is zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The operand's block at point t is rows 5000·t … of its array. -/
theorem iblk_rows (c : Dev nD) (t : Fin cfg2.N) (p : Fin 5000) (k : Fin 40) (r : Fin 100000) (hr : r.val = 5000 * t.val + p.val) :
    (iblk2 V c 0 t : S5000x40.Idx → EReal) (ix2 p k) = (V c main_v91 : S100000x40.Idx → EReal) (ix2 r k) := by
  obtain ⟨e0, e1, -⟩ := idx_facts t
  unfold iblk2
  rw [View.read_apply]
  show (V c main_v91 : S100000x40.Idx → EReal) _ = _
  refine congrArg (V c main_v91 : S100000x40.Idx → EReal) ?_
  funext a
  apply Fin.ext
  match a with
  | ⟨0, _⟩ => show win2_0.index t (0 : Fin 2) * 5000 + 1 * p.val = r.val; rw [e0, hr]; omega
  | ⟨1, _⟩ => show win2_0.index t (1 : Fin 2) * 40 + 1 * k.val = k.val; rw [e1]; omega

/-- WHAT POINT t WRITES BACK is block t of the log-softmax of the whole array. -/
theorem flushed_eq (c : Dev nD) (t : Fin cfg2.N) :
    (dat2 V c).flushed 1 t = ((cfg2.win 1).blk t).view.read (Elt Ideal)
      (Spec.lsm (V c main_v91 : S100000x40.Idx → EReal)) := by
  show (cfg2.win 1).cut (grid2.coords t) ((dat2 V c).after 1 t) = _
  rw [after2_1]
  unfold out2_1
  rw [View.canon_unit_zero hz]
  simp only [View.ld_unit_zero (S := S5000x40) hz]
  obtain ⟨-, -, e2, e3⟩ := idx_facts t
  have hN : cfg2.N = 20 := N_2
  have ht : t.val < 20 := hN ▸ t.isLt
  funext j
  obtain ⟨p, q, rfl⟩ : ∃ (p : Fin 5000) (q : Fin 40), j = ix2 p q := ⟨j 0, j 1, eq_ix2 j⟩
  rw [View.read_apply]
  have hemb : ((cfg2.win 1).blk t).view.emb (ix2 p q) = (ix2 (⟨5000 * t.val + p.val, by omega⟩ : Fin 100000) q : S100000x40.Idx) := by
    funext a
    apply Fin.ext
    match a with
    | ⟨0, _⟩ => show win2_1.index t (0 : Fin 2) * 5000 + 1 * p.val = 5000 * t.val + p.val; rw [e2]; omega
    | ⟨1, _⟩ => show win2_1.index t (1 : Fin 2) * 40 + 1 * q.val = q.val; rw [e3]; omega
  rw [hemb]
  refine (pay_apply (iblk2 V c 0 t) p q).trans ?_
  exact Spec.lsm_congr q (fun k => iblk_rows V c t p k _ rfl)

/-- An index of the result is in point t's block iff each coordinate is in the block's range. -/
theorem mem_blk (t : Fin cfg2.N) (i : S100000x40.Idx) :
    i ∈ ((cfg2.win 1).blk t).view.set ↔ ∀ a : Fin 2, win2_1.index t a * S5000x40.size a ≤ (i a).val ∧ (i a).val < win2_1.index t a * S5000x40.size a + S5000x40.size a := by
  show i ∈ ((View.whole main_v92).slice (win2_1.rect t)).set ↔ _
  rw [View.set_slice_whole, Rect.mem_set_unit]
  exact Iff.rfl

/-- THE RESULT ARRAY after the call: the log-softmax of the array the call found. -/
theorem final (c : Dev nD) : (dat2 V c).arrAt 1 cfg2.N = Spec.lsm (V c main_v91 : S100000x40.Idx → EReal) :=
  (dat2 V c).arrAt_eq_of_cover 1 _ (fun t _ => flushed_eq V c t) fun i => by
    have hN : cfg2.N = 20 := N_2
    have hi0 : (i 0).val < 100000 := (i 0).isLt
    have hi1 : (i 1).val < 40 := (i 1).isLt
    let t : Fin cfg2.N := ⟨(i 0).val / 5000, by rw [hN]; omega⟩
    obtain ⟨-, -, e2, e3⟩ := idx_facts t
    have htv : t.val = (i 0).val / 5000 := rfl
    refine ⟨t, flush2_1 t, ?_⟩
    rw [mem_blk]
    intro a
    match a with
    | ⟨0, _⟩ => show win2_1.index t (0 : Fin 2) * 5000 ≤ (i 0).val ∧ (i 0).val < win2_1.index t (0 : Fin 2) * 5000 + 5000; rw [e2, htv]; omega
    | ⟨1, _⟩ => show win2_1.index t (1 : Fin 2) * 40 ≤ (i 1).val ∧ (i 1).val < win2_1.index t (1 : Fin 2) * 40 + 40; rw [e3]; omega

end Cert.KernelIdeal.Hand.R2

end
-- ==== Proof.KernelValue.lean ====
/-
  The idealized kernel's result as one function of its arguments.

  With x the node features, E the edge array, W₁, b₁, W₂, b₂ the weights and biases, the result array ends holding

      lsm (glue2 (mm (relu (glue1 (mm x W₁) src dst b₁)) W₂) src dst b₂),     src, dst the two rows of E:

  the first call leaves the product x·W₁ (its 25 row blocks tile it), the host operations after it aggregate it over the
  graph and add b₁, the second call leaves relu(·)·W₂, the host operations after it aggregate again and add b₂, the third
  call leaves the row-wise log-softmax. The generated frame names the buffer contents at the six boundaries of that
  sequence; here each is evaluated at the few buffers the next step reads.
-/
import proofs.«136058_j21766894256615_1_alg».proof.Proof.KernelRun
import proofs.«136058_j21766894256615_1_alg».proof.Proof.Glue
import proofs.«136058_j21766894256615_1_alg».proof.Proof.Region0
import proofs.«136058_j21766894256615_1_alg».proof.Proof.Region1
import proofs.«136058_j21766894256615_1_alg».proof.Proof.Region2

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-- The whole computation, as a function of the six argument arrays over the extended reals. -/
def result (x0 : S100000x512.Idx → EReal) (x1 : (⟨S2x1600000, .i32⟩ : BufTy).Contents (Elt Ideal)) (x2 : S512x128.Idx → EReal)
    (x3 : S128.Idx → EReal) (x4 : S128x40.Idx → EReal) (x5 : S40.Idx → EReal) : S100000x40.Idx → EReal :=
  Spec.lsm (M := 100000) (N := 40)
    (glue2 (F := Ideal)
      (Spec.mm (M := 100000) (K := 128) (N := 40)
        (Spec.relu (glue1 (F := Ideal) (Spec.mm (M := 100000) (K := 512) (N := 128) x0 x2) (srcOf x1) (dstOf x1) x3)) x4)
      (srcOf x1) (dstOf x1) x5)

variable (m : (ℓ : Loc nD τ sig) → Buf (Elt Ideal) ℓ) (ρ : Dev nD → PrngReg) (c : Dev nD)

/-- The launch contents of a TensorCore buffer are the launch memory's. -/
theorem W0_apply (b : Ref sig .tc) : W0 m ρ c (Proc.devRef .tc b) = m ((c.tc : Thread nD τ).loc b) := rfl

/-- THE RESULT BUFFER at the last boundary holds `result` of the launch memory's arguments. -/
theorem W6_v92 : W6 m ρ c (Proc.devRef .tc main_v92)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- after the first stretch: the edge rows, and the arguments as launched
  have a1 : W1 m ρ c (Proc.devRef .tc main_v1) = srcOf (m ((c.tc : Thread nD τ).loc main_arg1)) := hostOps0_v1 (W0 m ρ c)
  have a3 : W1 m ρ c (Proc.devRef .tc main_v3) = dstOf (m ((c.tc : Thread nD τ).loc main_arg1)) := hostOps0_v3 (W0 m ρ c)
  have a_arg0 : W1 m ρ c (Proc.devRef .tc main_arg0) = m ((c.tc : Thread nD τ).loc main_arg0) := hostOps0_keep_arg0 (W0 m ρ c)
  have a_arg2 : W1 m ρ c (Proc.devRef .tc main_arg2) = m ((c.tc : Thread nD τ).loc main_arg2) := hostOps0_keep_arg2 (W0 m ρ c)
  have a_arg3 : W1 m ρ c (Proc.devRef .tc main_arg3) = m ((c.tc : Thread nD τ).loc main_arg3) := hostOps0_keep_arg3 (W0 m ρ c)
  have a_arg4 : W1 m ρ c (Proc.devRef .tc main_arg4) = m ((c.tc : Thread nD τ).loc main_arg4) := hostOps0_keep_arg4 (W0 m ρ c)
  have a_arg5 : W1 m ρ c (Proc.devRef .tc main_arg5) = m ((c.tc : Thread nD τ).loc main_arg5) := hostOps0_keep_arg5 (W0 m ρ c)
  -- after the first call: its result the product, every other buffer as before
  have b4 : W2 m ρ c (Proc.devRef .tc main_v4) = Spec.mm (M := 100000) (K := 512) (N := 128) (m ((c.tc : Thread nD τ).loc main_arg0)) (m ((c.tc : Thread nD τ).loc main_arg2)) := by
    refine (W2_arr m ρ c 2).trans ((R0.final (V1 m ρ) c).trans ?_)
    show Spec.mm (W1 m ρ c (Proc.devRef .tc main_arg0)) (W1 m ρ c (Proc.devRef .tc main_arg2)) = _
    rw [a_arg0, a_arg2]
  have b1 : W2 m ρ c (Proc.devRef .tc main_v1) = srcOf (m ((c.tc : Thread nD τ).loc main_arg1)) := (W2_of_ne m ρ c main_v1 (by decide)).trans a1
  have b3 : W2 m ρ c (Proc.devRef .tc main_v3) = dstOf (m ((c.tc : Thread nD τ).loc main_arg1)) := (W2_of_ne m ρ c main_v3 (by decide)).trans a3
  have b_arg3 : W2 m ρ c (Proc.devRef .tc main_arg3) = m ((c.tc : Thread nD τ).loc main_arg3) := (W2_of_ne m ρ c main_arg3 (by decide)).trans a_arg3
  have b_arg4 : W2 m ρ c (Proc.devRef .tc main_arg4) = m ((c.tc : Thread nD τ).loc main_arg4) := (W2_of_ne m ρ c main_arg4 (by decide)).trans a_arg4
  have b_arg5 : W2 m ρ c (Proc.devRef .tc main_arg5) = m ((c.tc : Thread nD τ).loc main_arg5) := (W2_of_ne m ρ c main_arg5 (by decide)).trans a_arg5
  -- after the second stretch: the first aggregation
  have c47 : W3 m ρ c (Proc.devRef .tc main_v47)
      = glue1 (F := Ideal) (Spec.mm (M := 100000) (K := 512) (N := 128) (m ((c.tc : Thread nD τ).loc main_arg0)) (m ((c.tc : Thread nD τ).loc main_arg2))) (srcOf (m ((c.tc : Thread nD τ).loc main_arg1))) (dstOf (m ((c.tc : Thread nD τ).loc main_arg1))) (m ((c.tc : Thread nD τ).loc main_arg3)) := by
    refine (hostOps1_v47 (W2 m ρ c)).trans ?_
    rw [b4, b1, b3, b_arg3]
  have c1 : W3 m ρ c (Proc.devRef .tc main_v1) = srcOf (m ((c.tc : Thread nD τ).loc main_arg1)) := (hostOps1_keep_v1 (W2 m ρ c)).trans b1
  have c3 : W3 m ρ c (Proc.devRef .tc main_v3) = dstOf (m ((c.tc : Thread nD τ).loc main_arg1)) := (hostOps1_keep_v3 (W2 m ρ c)).trans b3
  have c_arg4 : W3 m ρ c (Proc.devRef .tc main_arg4) = m ((c.tc : Thread nD τ).loc main_arg4) := (hostOps1_keep_arg4 (W2 m ρ c)).trans b_arg4
  have c_arg5 : W3 m ρ c (Proc.devRef .tc main_arg5) = m ((c.tc : Thread nD τ).loc main_arg5) := (hostOps1_keep_arg5 (W2 m ρ c)).trans b_arg5
  -- after the second call
  have d48 : W4 m ρ c (Proc.devRef .tc main_v48)
      = Spec.mm (M := 100000) (K := 128) (N := 40) (Spec.relu (W3 m ρ c (Proc.devRef .tc main_v47))) (W3 m ρ c (Proc.devRef .tc main_arg4)) :=
    (W4_arr m ρ c 2).trans (R1.final (V3 m ρ) c)
  have d1 : W4 m ρ c (Proc.devRef .tc main_v1) = srcOf (m ((c.tc : Thread nD τ).loc main_arg1)) := (W4_of_ne m ρ c main_v1 (by decide)).trans c1
  have d3 : W4 m ρ c (Proc.devRef .tc main_v3) = dstOf (m ((c.tc : Thread nD τ).loc main_arg1)) := (W4_of_ne m ρ c main_v3 (by decide)).trans c3
  have d_arg5 : W4 m ρ c (Proc.devRef .tc main_arg5) = m ((c.tc : Thread nD τ).loc main_arg5) := (W4_of_ne m ρ c main_arg5 (by decide)).trans c_arg5
  -- after the third stretch: the second aggregation
  have e91 : W5 m ρ c (Proc.devRef .tc main_v91)
      = glue2 (F := Ideal) (W4 m ρ c (Proc.devRef .tc main_v48)) (W4 m ρ c (Proc.devRef .tc main_v1)) (W4 m ρ c (Proc.devRef .tc main_v3)) (W4 m ρ c (Proc.devRef .tc main_arg5)) :=
    hostOps2_v91 (W4 m ρ c)
  -- after the third call
  have f92 : W6 m ρ c (Proc.devRef .tc main_v92) = Spec.lsm (M := 100000) (N := 40) (W5 m ρ c (Proc.devRef .tc main_v91)) :=
    (W6_arr m ρ c 1).trans (R2.final (V5 m ρ) c)
  rw [f92, e91, d48, d1, d3, d_arg5, c47, c_arg4]
  rfl

end Cert.KernelIdeal.Hand

end
-- ==== Proof.LibAfterAppend.lean ====
/-
  Host operations run one after the other, read in stages.

  `StableHlo.after ops V` is the contents of the buffers after the list `ops` of host operations has run from the contents
  `V`: each operation's result folded in, in order. Over a list cut in two it composes: the contents after `l₁ ++ l₂` are
  the contents after `l₂`, run from the contents after `l₁`. A long straight-line host program can therefore be read stage by
  stage — cut at the buffers a later stage reads (for a literal list, `ops = ops.take n ++ ops.drop n` holds by `rfl`), each
  stage read on its own from ANY contents before it, and the readings composed — instead of as one composed term of the whole
  program, which for a program of a hundred operations with reductions over large arrays is too large to compare in one step.
-/
import Idealize.ShloMosaic.Lib.StableHlo.Run

namespace Idealize.ShloMosaic.StableHlo

variable {τ : Topo} {sig : RefSig} {Val : EltTy → Type}

/-- The contents after two lists of host operations run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A list of host operations cut at position `n`: the contents after the whole list are those after its tail, run from the
    contents after its first `n` operations. -/
theorem after_take_drop (n : Nat) (l : List (HloOp τ sig Val)) (V : Valuation τ sig Val) :
    after l V = after (l.drop n) (after (l.take n) V) := by
  rw [← after_append, List.take_append_drop]

end Idealize.ShloMosaic.StableHlo
-- ==== Proof.RefStages.lean ====
/-
  The reference's host program, read stage by stage.

  The reference is one straight line of 130 host operations. It is cut where the kernel's program is cut by its pipelined
  calls: the two rows of the edge array and the first product x·W₁ (5 operations); the first aggregation (53 operations, the
  very operations the kernel's program runs between its first and second call); the relu and the second product (4); the
  second aggregation (53); the row-wise log-softmax (15). The buffer contents after a list of operations compose over such a
  cut, so each piece is read on its own, from ANY contents of the buffers before it.
-/
import proofs.«136058_j21766894256615_1_alg».proof.Proof.RefRun
import proofs.«136058_j21766894256615_1_alg».proof.Proof.Glue
import proofs.«136058_j21766894256615_1_alg».proof.Proof.LibAfterAppend
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The five stages of the operation list. -/
abbrev cA : List (HloOp τ sig (Elt F)) := (Value.ops (F := F)).take 5
abbrev cB : List (HloOp τ sig (Elt F)) := ((Value.ops (F := F)).drop 5).take 53
abbrev cC : List (HloOp τ sig (Elt F)) := ((Value.ops (F := F)).drop 58).take 4
abbrev cD : List (HloOp τ sig (Elt F)) := ((Value.ops (F := F)).drop 62).take 53
/-- The fifth stage, the log-softmax, in five pieces: the row maximum; that maximum against −∞ once more; the shifted
    array; the row sums of its exponentials; the final subtraction of their logarithms. -/
abbrev cE1 : List (HloOp τ sig (Elt F)) := ((Value.ops (F := F)).drop 115).take 2
abbrev cE2 : List (HloOp τ sig (Elt F)) := ((Value.ops (F := F)).drop 117).take 3
abbrev cE3 : List (HloOp τ sig (Elt F)) := ((Value.ops (F := F)).drop 120).take 3
abbrev cE4 : List (HloOp τ sig (Elt F)) := ((Value.ops (F := F)).drop 123).take 3
abbrev cE5 : List (HloOp τ sig (Elt F)) := (Value.ops (F := F)).drop 126
abbrev cE : List (HloOp τ sig (Elt F)) := cE1 ++ (cE2 ++ (cE3 ++ (cE4 ++ cE5)))

theorem ops_split : Value.ops (F := F) = cA ++ (cB ++ (cC ++ (cD ++ cE))) := rfl

/-- The row-wise log-softmax as the reference's host operations compute it: the row maximum by a reduce from −∞, taken
    against −∞ once more, kept as a column and spread over the lanes, subtracted; the exponentials summed by a reduce from
    zero, kept as a column; the logarithm; spread, subtracted. -/
def refLsm (X : (⟨S100000x40, .f32⟩ : BufTy).Contents (Elt F)) : (⟨S100000x40, .f32⟩ : BufTy).Contents (Elt F) :=
  let mx : (⟨S100000, .f32⟩ : BufTy).Contents (Elt F) :=
    maximumf (broadcastInDim S100000 ![] bcast_S_S100000 (constant S_ .f32 0xFF800000#32))
      (Host.reduce FloatOps.maximumf X (constant S_ .f32 0xFF800000#32) reducesTo_S100000x40_S100000_d1 h_S_)
  let sh : (⟨S100000x40, .f32⟩ : BufTy).Contents (Elt F) :=
    subf X (broadcastInDim S100000x40 ![0, 1] bcast_S100000x1_S100000x40_0_1
      ((broadcastInDim S100000x1 ![0] bcast_S100000_S100000x1_0 mx : (⟨S100000x1, .f32⟩ : BufTy).Contents (Elt F))))
  let sm : (⟨S100000, .f32⟩ : BufTy).Contents (Elt F) :=
    Host.reduceAdd (Host.exp sh) (constant S_ .f32 0x00000000#32) reducesTo_S100000x40_S100000_d1 h_S_
  subf sh (broadcastInDim S100000x40 ![0, 1] bcast_S100000x1_S100000x40_0_1
    (Host.log ((broadcastInDim S100000x1 ![0] bcast_S100000_S100000x1_0 sm : (⟨S100000x1, .f32⟩ : BufTy).Contents (Elt F)))))

section Stages

variable (V : Valuation τ sig (Elt F))

/-- Stage 1: the edge array's two rows and the first product. -/
theorem cA_v4 : after (cA (F := F)) V (Proc.devRef .tc main_v4)
    = Host.dotGeneral dot_S100000x512_S512x128_S100000x128_1_0_0_1_n_n none (V (Proc.devRef .tc main_arg0)) (V (Proc.devRef .tc main_arg2)) := by
  simp only [cA, Value.ops, List.drop_succ_cons, List.drop_zero, List.take_succ_cons, List.take_zero]
  after_results_simp <;> rfl
theorem cA_v1 : after (cA (F := F)) V (Proc.devRef .tc main_v1) = Cert.KernelIdeal.Hand.srcOf (V (Proc.devRef .tc main_arg1)) := by
  simp only [cA, Value.ops, List.drop_succ_cons, List.drop_zero, List.take_succ_cons, List.take_zero]
  after_results_simp <;> rfl
theorem cA_v3 : after (cA (F := F)) V (Proc.devRef .tc main_v3) = Cert.KernelIdeal.Hand.dstOf (V (Proc.devRef .tc main_arg1)) := by
  simp only [cA, Value.ops, List.drop_succ_cons, List.drop_zero, List.take_succ_cons, List.take_zero]
  after_results_simp <;> rfl
theorem cA_keep_arg3 : after (cA (F := F)) V (Proc.devRef .tc main_arg3) = V (Proc.devRef .tc main_arg3) := by
  simp only [cA, Value.ops, List.drop_succ_cons, List.drop_zero, List.take_succ_cons, List.take_zero]
  after_results_simp <;> rfl
theorem cA_keep_arg4 : after (cA (F := F)) V (Proc.devRef .tc main_arg4) = V (Proc.devRef .tc main_arg4) := by
  simp only [cA, Value.ops, List.drop_succ_cons, List.drop_zero, List.take_succ_cons, List.take_zero]
  after_results_simp <;> rfl
theorem cA_keep_arg5 : after (cA (F := F)) V (Proc.devRef .tc main_arg5) = V (Proc.devRef .tc main_arg5) := by
  simp only [cA, Value.ops, List.drop_succ_cons, List.drop_zero, List.take_succ_cons, List.take_zero]
  after_results_simp <;> rfl

set_option maxHeartbeats 8000000 in
/-- Stage 2: the first aggregation — the function the kernel's host operations compute between its first two calls. -/
theorem cB_v47 : after (cB (F := F)) V (Proc.devRef .tc main_v47)
    = Cert.KernelIdeal.Hand.glue1 (V (Proc.devRef .tc main_v4)) (V (Proc.devRef .tc main_v1)) (V (Proc.devRef .tc main_v3)) (V (Proc.devRef .tc main_arg3)) := by
  simp only [cB, Value.ops, List.drop_succ_cons, List.drop_zero, List.take_succ_cons, List.take_zero]
  after_results_simp
  rfl
set_option maxHeartbeats 8000000 in
theorem cB_keep_v1 : after (cB (F := F)) V (Proc.devRef .tc main_v1) = V (Proc.devRef .tc main_v1) := by
  simp only [cB, Value.ops, List.drop_succ_cons, List.drop_zero, List.take_succ_cons, List.take_zero]
  after_results_simp <;> rfl
set_option maxHeartbeats 8000000 in
theorem cB_keep_v3 : after (cB (F := F)) V (Proc.devRef .tc main_v3) = V (Proc.devRef .tc main_v3) := by
  simp only [cB, Value.ops, List.drop_succ_cons, List.drop_zero, List.take_succ_cons, List.take_zero]
  after_results_simp <;> rfl
set_option maxHeartbeats 8000000 in
theorem cB_keep_arg4 : after (cB (F := F)) V (Proc.devRef .tc main_arg4) = V (Proc.devRef .tc main_arg4) := by
  simp only [cB, Value.ops, List.drop_succ_cons, List.drop_zero, List.take_succ_cons, List.take_zero]
  after_results_simp <;> rfl
set_option maxHeartbeats 8000000 in
theorem cB_keep_arg5 : after (cB (F := F)) V (Proc.devRef .tc main_arg5) = V (Proc.devRef .tc main_arg5) := by
  simp only [cB, Value.ops, List.drop_succ_cons, List.drop_zero, List.take_succ_cons, List.take_zero]
  after_results_simp <;> rfl

/-- Stage 3: the relu and the second product. -/
theorem cC_v49 : after (cC (F := F)) V (Proc.devRef .tc main_v49)
    = Host.dotGeneral dot_S100000x128_S128x40_S100000x40_1_0_0_1_n_n none
        (maximumf (V (Proc.devRef .tc main_v47)) (broadcastInDim S100000x128 ![] bcast_S_S100000x128 (constant S_ .f32 0x00000000#32)))
        (V (Proc.devRef .tc main_arg4)) := by
  simp only [cC, Value.ops, List.drop_succ_cons, List.drop_zero, List.take_succ_cons, List.take_zero]
  after_results_simp <;> rfl
theorem cC_keep_v1 : after (cC (F := F)) V (Proc.devRef .tc main_v1) = V (Proc.devRef .tc main_v1) := by
  simp only [cC, Value.ops, List.drop_succ_cons, List.drop_zero, List.take_succ_cons, List.take_zero]
  after_results_simp <;> rfl
theorem cC_keep_v3 : after (cC (F := F)) V (Proc.devRef .tc main_v3) = V (Proc.devRef .tc main_v3) := by
  simp only [cC, Value.ops, List.drop_succ_cons, List.drop_zero, List.take_succ_cons, List.take_zero]
  after_results_simp <;> rfl
theorem cC_keep_arg5 : after (cC (F := F)) V (Proc.devRef .tc main_arg5) = V (Proc.devRef .tc main_arg5) := by
  simp only [cC, Value.ops, List.drop_succ_cons, List.drop_zero, List.take_succ_cons, List.take_zero]
  after_results_simp <;> rfl

set_option maxHeartbeats 8000000 in
/-- Stage 4: the second aggregation. -/
theorem cD_v92 : after (cD (F := F)) V (Proc.devRef .tc main_v92)
    = Cert.KernelIdeal.Hand.glue2 (V (Proc.devRef .tc main_v49)) (V (Proc.devRef .tc main_v1)) (V (Proc.devRef .tc main_v3)) (V (Proc.devRef .tc main_arg5)) := by
  simp only [cD, Value.ops, List.drop_succ_cons, List.drop_zero, List.take_succ_cons, List.take_zero]
  after_results_simp
  rfl

/-! Stage 5 in its five pieces. The row maximum is a `stablehlo.reduce`, whose definition folds over every index of the
    100000 × 40 operand: it is kept folded here, so that the two sides are compared through its operands only. -/

section RowMax
attribute [local irreducible] Host.reduce
theorem cE1_v0 : after (cE1 (F := F)) V (Proc.devRef .tc main_call1_v0)
    = Host.reduce FloatOps.maximumf (V (Proc.devRef .tc main_v92) : (⟨S100000x40, .f32⟩ : BufTy).Contents (Elt F)) (constant S_ .f32 0xFF800000#32) reducesTo_S100000x40_S100000_d1 h_S_ := by
  simp only [cE1, Value.ops, List.drop_succ_cons, List.drop_zero, List.take_succ_cons, List.take_zero]
  after_results_simp <;> rfl
end RowMax
theorem cE1_keep_v92 : after (cE1 (F := F)) V (Proc.devRef .tc main_v92) = V (Proc.devRef .tc main_v92) := by
  simp only [cE1, Value.ops, List.drop_succ_cons, List.drop_zero, List.take_succ_cons, List.take_zero]
  after_results_simp <;> rfl

theorem cE2_v2 : after (cE2 (F := F)) V (Proc.devRef .tc main_call1_v2)
    = maximumf (broadcastInDim S100000 ![] bcast_S_S100000 (constant S_ .f32 0xFF800000#32)) (V (Proc.devRef .tc main_call1_v0) : (⟨S100000, .f32⟩ : BufTy).Contents (Elt F)) := by
  simp only [cE2, Value.ops, List.drop_succ_cons, List.drop_zero, List.take_succ_cons, List.take_zero]
  after_results_simp <;> rfl
theorem cE2_keep_v92 : after (cE2 (F := F)) V (Proc.devRef .tc main_v92) = V (Proc.devRef .tc main_v92) := by
  simp only [cE2, Value.ops, List.drop_succ_cons, List.drop_zero, List.take_succ_cons, List.take_zero]
  after_results_simp <;> rfl

theorem cE3_v5 : after (cE3 (F := F)) V (Proc.devRef .tc main_call1_v5)
    = subf (V (Proc.devRef .tc main_v92) : (⟨S100000x40, .f32⟩ : BufTy).Contents (Elt F)) (broadcastInDim S100000x40 ![0, 1] bcast_S100000x1_S100000x40_0_1
        ((broadcastInDim S100000x1 ![0] bcast_S100000_S100000x1_0 (V (Proc.devRef .tc main_call1_v2) : (⟨S100000, .f32⟩ : BufTy).Contents (Elt F)) : (⟨S100000x1, .f32⟩ : BufTy).Contents (Elt F)))) := by
  simp only [cE3, Value.ops, List.drop_succ_cons, List.drop_zero, List.take_succ_cons, List.take_zero]
  after_results_simp <;> rfl

theorem cE4_v7 : after (cE4 (F := F)) V (Proc.devRef .tc main_call1_v7)
    = Host.reduceAdd (Host.exp (V (Proc.devRef .tc main_call1_v5) : (⟨S100000x40, .f32⟩ : BufTy).Contents (Elt F))) (constant S_ .f32 0x00000000#32) reducesTo_S100000x40_S100000_d1 h_S_ := by
  simp only [cE4, Value.ops, List.drop_succ_cons, List.drop_zero, List.take_succ_cons, List.take_zero]
  after_results_simp <;> rfl
theorem cE4_keep_call1_v5 : after (cE4 (F := F)) V (Proc.devRef .tc main_call1_v5) = V (Proc.devRef .tc main_call1_v5) := by
  simp only [cE4, Value.ops, List.drop_succ_cons, List.drop_zero, List.take_succ_cons, List.take_zero]
  after_results_simp <;> rfl

theorem cE5_v93 : after (cE5 (F := F)) V (Proc.devRef .tc main_v93)
    = subf (V (Proc.devRef .tc main_call1_v5) : (⟨S100000x40, .f32⟩ : BufTy).Contents (Elt F)) (broadcastInDim S100000x40 ![0, 1] bcast_S100000x1_S100000x40_0_1
        (Host.log ((broadcastInDim S100000x1 ![0] bcast_S100000_S100000x1_0 (V (Proc.devRef .tc main_call1_v7) : (⟨S100000, .f32⟩ : BufTy).Contents (Elt F)) : (⟨S100000x1, .f32⟩ : BufTy).Contents (Elt F))))) := by
  simp only [cE5, Value.ops, List.drop_succ_cons, List.drop_zero, List.take_succ_cons, List.take_zero]
  after_results_simp <;> rfl

/-- Stage 5: the row-wise log-softmax. -/
theorem cE_v93 : after (cE (F := F)) V (Proc.devRef .tc main_v93) = refLsm (V (Proc.devRef .tc main_v92)) := by
  show after (cE1 ++ (cE2 ++ (cE3 ++ (cE4 ++ cE5)))) V (Proc.devRef .tc main_v93) = _
  rw [after_append, after_append, after_append, after_append]
  rw [cE5_v93, cE4_v7, cE4_keep_call1_v5, cE3_v5, cE2_v2, cE2_keep_v92, cE1_v0, cE1_keep_v92]
  rfl

end Stages

end Cert.ReferenceIdeal.Hand

end
-- ==== Proof.RefValue.lean ====
/-
  The idealized reference's result is the kernel's function of the arguments.

  Read stage by stage, the reference leaves lsm' (glue2 (dg (relu' (glue1 (dg x W₁) src dst b₁)) W₂) src dst b₂), where dg is
  the host's matrix product, relu' its maximum with a zero array, lsm' its log-softmax and glue1, glue2 the very aggregations
  the kernel's host operations compute. Over the extended reals dg is the sum over the contracted coordinate (`mm`), relu'
  is `relu`, and lsm' is `lsm`: the host reduces each row's maximum from −∞ and takes it against −∞ once more, which changes
  nothing; it adds the exponentials onto a zero, which changes nothing. So the reference's result is `result` of its arguments.
-/
import proofs.«136058_j21766894256615_1_alg».proof.Proof.RefStages
import proofs.«136058_j21766894256615_1_alg».proof.Proof.KernelValue
import proofs.«136058_j21766894256615_1_alg».proof.Proof.LibRowwise
import proofs.«136058_j21766894256615_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

-- a `stablehlo.reduce` is a fold over every index of its operand: it is read by the library's lemma, never unfolded
attribute [local irreducible] Host.reduce

/-- The host's logarithm and exponential act entry by entry. -/
theorem hostLog_apply {s : Shape} (z : FVec Ideal s .f32) (i : s.Idx) : Host.log z i = Ideal.log (z i) := rfl
theorem hostExp_apply {s : Shape} (z : FVec Ideal s .f32) (i : s.Idx) : Host.exp z i = Ideal.exp (z i) := rfl

/-- The host's first product is the sum over the contracted coordinate. -/
theorem dg1_eq (X : FVec Ideal S100000x512 .f32) (Y : FVec Ideal S512x128 .f32) :
    Host.dotGeneral (F := Ideal) dot_S100000x512_S512x128_S100000x128_1_0_0_1_n_n none X Y = Cert.Spec.mm (M := 100000) (K := 512) (N := 128) X Y := by
  funext j
  simp only [Host.dotGeneral]
  exact PlainDot.dotGeneral_apply none _ X Y j

/-- So is its second. -/
theorem dg2_eq (X : FVec Ideal S100000x128 .f32) (Y : FVec Ideal S128x40 .f32) :
    Host.dotGeneral (F := Ideal) dot_S100000x128_S128x40_S100000x40_1_0_0_1_n_n none X Y = Cert.Spec.mm (M := 100000) (K := 128) (N := 40) X Y := by
  funext j
  simp only [Host.dotGeneral]
  exact PlainDot.dotGeneral_apply none _ X Y j

/-- The host's maximum with an array of zeros is the entrywise maximum with zero. -/
theorem relu_eq (X : S100000x128.Idx → EReal) :
    maximumf (F := Ideal) X (broadcastInDim S100000x128 ![] bcast_S_S100000x128 (constant S_ .f32 0x00000000#32)) = Cert.Spec.relu X := by
  funext i
  show max (X i) (broadcastInDim S100000x128 ![] bcast_S_S100000x128 (constant (F := Ideal) S_ .f32 0x00000000#32) i) = max (X i) _
  rw [broadcastInDim_apply _ bcast_S_S100000x128 _ i ix0 (fun a => a.elim0)]
  rfl

/-- An index of a row r of the 100000 × 40 array with the lane k put back is (r, k). -/
theorem lift_eq (h : S100000x40.Reduces [1] S100000) (r : Fin 100000) (k : Fin 40) : h.lift (ix1 r) k = (ix2 r k : S100000x40.Idx) := by
  funext a
  apply Fin.ext
  match a with
  | ⟨0, _⟩ => rfl
  | ⟨1, _⟩ => rfl

/-- A column spread over the 40 lanes reads, at (r, q), the column at (r, 0). -/
theorem spread_apply {α : Type} (z : S100000x1.Idx → α) (r : Fin 100000) (q : Fin 40) :
    broadcastInDim S100000x40 ![0, 1] bcast_S100000x1_S100000x40_0_1 z (ix2 r q) = z (ix2 r (0 : Fin 1)) :=
  broadcastInDim_apply _ bcast_S100000x1_S100000x40_0_1 z (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A vector kept as a column reads, at (r, 0), the vector at r. -/
theorem column_apply {α : Type} (y : S100000.Idx → α) (r : Fin 100000) :
    broadcastInDim S100000x1 ![0] bcast_S100000_S100000x1_0 y (ix2 r (0 : Fin 1)) = y (ix1 r) :=
  broadcastInDim_apply _ bcast_S100000_S100000x1_0 y (ix2 r (0 : Fin 1)) (ix1 r) (fun a => match a with
    | ⟨0, _⟩ => by show r.val = if (100000 : Nat) = 1 then 0 else r.val; rw [if_neg (by decide)])

/-- The host's row maximum, taken against −∞ once more, is the row's largest entry from −∞. -/
theorem hostMax_apply (X : S100000x40.Idx → EReal) (r : Fin 100000) :
    maximumf (F := Ideal) (broadcastInDim S100000 ![] bcast_S_S100000 (constant S_ .f32 0xFF800000#32))
      (Host.reduce FloatOps.maximumf X (constant (F := Ideal) S_ .f32 0xFF800000#32) reducesTo_S100000x40_S100000_d1 h_S_) (ix1 r)
      = Cert.Spec.rowMax X r := by
  have h : S100000x40.Reduces [1] S100000 := by decide
  have e1 : broadcastInDim S100000 ![] bcast_S_S100000 (constant (F := Ideal) S_ .f32 0xFF800000#32) (ix1 r) = Ideal.ofBits .f32 0xFF800000#32 :=
    broadcastInDim_apply _ bcast_S_S100000 _ (ix1 r) ix0 (fun a => a.elim0)
  have e2 : Host.reduce FloatOps.maximumf X (constant (F := Ideal) S_ .f32 0xFF800000#32) reducesTo_S100000x40_S100000_d1 h_S_ (ix1 r)
      = Cert.Spec.rowMax X r := by
    refine (Host.reduce_eq_fold_single (FloatOps.maximumf (F := Ideal) (φ := .f32)) X (constant (F := Ideal) S_ .f32 0xFF800000#32)
      reducesTo_S100000x40_S100000_d1 h h_S_ (ix1 r)).trans ?_
    unfold Cert.Spec.rowMax
    rw [show (X ∘ h.lift (ix1 r)) = (fun k : Fin 40 => X (ix2 r k)) from funext fun k => congrArg X (lift_eq h r k)]
    rfl
  rw [ValueIdx.maximumf_apply, e1, e2]
  exact Cert.Spec.max_init_rowMax X r

/-- The host's row sum from zero is the sum of the row. -/
theorem hostSum_apply (Y : S100000x40.Idx → EReal) (r : Fin 100000) :
    Host.reduceAdd (F := Ideal) Y (constant S_ .f32 0x00000000#32) reducesTo_S100000x40_S100000_d1 h_S_ (ix1 r) = ∑ k : Fin 40, Y (ix2 r k) := by
  have h : S100000x40.Reduces [1] S100000 := by decide
  simp only [Host.reduceAdd, Ideal.hostReduceAdd_def]
  rw [Ideal.hostReduceAdd_single reducesTo_S100000x40_S100000_d1 h]
  show Ideal.ofBits .f32 0x00000000#32 + _ = _
  rw [Ideal.ofBits_zero_f32, zero_add]
  exact Finset.sum_congr rfl fun k _ => congrArg Y (lift_eq h r k)

/-- The shifted entry: the host's X minus its spread row maximum is X(r, q) − μ_r. -/
theorem shifted_apply (X : S100000x40.Idx → EReal) (r : Fin 100000) (q : Fin 40) :
    subf (F := Ideal) X (broadcastInDim S100000x40 ![0, 1] bcast_S100000x1_S100000x40_0_1
      (broadcastInDim S100000x1 ![0] bcast_S100000_S100000x1_0
        (maximumf (F := Ideal) (broadcastInDim S100000 ![] bcast_S_S100000 (constant S_ .f32 0xFF800000#32))
          (Host.reduce FloatOps.maximumf X (constant (F := Ideal) S_ .f32 0xFF800000#32) reducesTo_S100000x40_S100000_d1 h_S_)))) (ix2 r q)
      = X (ix2 r q) - Cert.Spec.rowMax X r := by
  rw [ValueIdx.subf_apply, spread_apply, column_apply, hostMax_apply]

/-- The host's log-softmax is the row-wise log-softmax. -/
theorem refLsm_eq (X : S100000x40.Idx → EReal) : refLsm (F := Ideal) X = Cert.Spec.lsm (M := 100000) (N := 40) X := by
  funext j
  obtain ⟨r, q, rfl⟩ : ∃ (r : Fin 100000) (q : Fin 40), j = ix2 r q := ⟨j 0, j 1, eq_ix2 j⟩
  rw [Cert.Spec.lsm_ix2]
  unfold refLsm
  dsimp only
  rw [ValueIdx.subf_apply, shifted_apply X r q, spread_apply, hostLog_apply, column_apply, hostSum_apply]
  refine congrArg (fun z => (X (ix2 r q) - Cert.Spec.rowMax X r) - Ideal.log z) ?_
  refine Finset.sum_congr rfl fun k _ => ?_
  rw [hostExp_apply, shifted_apply X r k]

variable (m : (ℓ : Loc nD τ sig) → Buf (Elt Ideal) ℓ) (c : Dev nD)

/-- THE RESULT BUFFER after the reference's 130 operations holds `result` of the launch memory's arguments. -/
theorem ops_v93 : after (Value.ops (F := Ideal)) (launchContents m c) (Proc.devRef .tc main_v93)
    = Cert.KernelIdeal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, after_append, after_append, after_append, after_append]
  rw [cE_v93, cD_v92, cC_v49, cC_keep_v1, cC_keep_v3, cC_keep_arg5, cB_v47, cB_keep_v1, cB_keep_v3, cB_keep_arg4, cB_keep_arg5,
    cA_v4, cA_v1, cA_v3, cA_keep_arg3, cA_keep_arg4, cA_keep_arg5]
  rw [refLsm_eq, relu_eq, dg2_eq, dg1_eq]
  rfl

set_option maxHeartbeats 52000000 in
/-- THE REFERENCE'S RUN: every weakly fair execution terminates, nothing faulting, with the result array at `result` of the
    arguments and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93) = Cert.KernelIdeal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (ops_v93 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq Value.scopedRefs_eq Value.scopedSems_eq defs main (fun _ => Value.ops) Value.main_eq (fun _ => Value.ops_sub) m ρ)

end Cert.ReferenceIdeal.Hand

end
-- ==== Proof.lean ====
/-
  Two-layer graph convolution with a row-wise log-softmax: the Pallas kernel against its jnp reference, over the extended reals.

  THE MATHEMATICS. With x the 100000 × 512 node features, E the 2 × 1600000 edge array (rows src, dst), W₁, b₁, W₂, b₂ the
  weights and biases, both programs compute

      lsm (A (relu (A (x·W₁) + b₁)·W₂) + b₂),

  where A is the symmetric-normalised aggregation over the graph with self loops (degree by a scatter-add of ones, inverse
  square root, edge coefficients by gathers, messages summed per destination by a scatter-add) and lsm the row-wise
  log-softmax. The kernel computes the two matrix products and the log-softmax in three pipelined calls, tile by tile (row
  blocks of 4000, 5000, 5000), the operands of the products narrowed to bfloat16; the reference computes them whole, by the
  host's dot_general and reduces. The aggregation is the same list of host operations in both programs.

  WHY THEY AGREE. Over the extended reals a change of float format is the identity; a matrix product into a zero
  accumulator and the host's dot_general are both the finite sum over the contracted coordinate, and an entry of a product
  or of a log-softmax depends on one row of the left operand only, so computing it tile by tile gives the blocks of the whole
  result, and the blocks tile the array. The reference takes each row maximum against −∞ once more and adds the exponentials
  onto a zero: neither changes a value. No law used needs an entry to be finite, so the precondition is not opened.

  THE MODULES. LibRowwise: the three index-by-index functions (mm, relu, lsm). Region0, Region1, Region2: each pipelined call leaves
  that function of the arrays it finds. Glue: the aggregation as one function, and that each stretch of the kernel's host
  operations computes it. KernelRun, KernelValue: the kernel's run, with its result array named and evaluated. RefRun,
  RefStages, RefValue: the reference's operation list, read stage by stage (LibAfterAppend: the contents after a list of host
  operations compose over a cut), evaluated to the same function.
  preserves_Kernel_KernelIdeal is `True`: the idealization rewrote nothing.
-/
import proofs.«136058_j21766894256615_1_alg».proof.Defs
import proofs.«136058_j21766894256615_1_alg».proof.Proof.Gen.Kernel
import proofs.«136058_j21766894256615_1_alg».proof.Proof.Gen.Kernel.Skeleton
import proofs.«136058_j21766894256615_1_alg».proof.Proof.Gen.Kernel.Launch
import proofs.«136058_j21766894256615_1_alg».proof.Proof.Gen.Kernel.Points
import proofs.«136058_j21766894256615_1_alg».proof.Proof.Gen.Kernel.Frame
import proofs.«136058_j21766894256615_1_alg».proof.Proof.Gen.KernelIdeal
import proofs.«136058_j21766894256615_1_alg».proof.Proof.Gen.KernelIdeal.Skeleton
import proofs.«136058_j21766894256615_1_alg».proof.Proof.Gen.KernelIdeal.Launch
import proofs.«136058_j21766894256615_1_alg».proof.Proof.Gen.KernelIdeal.Points
import proofs.«136058_j21766894256615_1_alg».proof.Proof.Gen.KernelIdeal.Frame
import proofs.«136058_j21766894256615_1_alg».proof.Proof.Gen.ReferenceIdeal
import proofs.«136058_j21766894256615_1_alg».proof.Proof.Gen.Pre_finite_inputs
import proofs.«136058_j21766894256615_1_alg».proof.Proof.KernelRun
import proofs.«136058_j21766894256615_1_alg».proof.Proof.KernelValue
import proofs.«136058_j21766894256615_1_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.ref_run m ρ)

/-- From memories agreeing on the arguments both idealized programs end with the result array at the one function
    `result` of the arguments. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.W6_v92 m ρ c), (h c).2⟩) (Cert.KernelIdeal.Hand.run_value m ρ)
  · refine (θ_run Cert.ReferenceIdeal.defs _ _).mono (fun _ h c => ⟨(h c).1.trans ?_, (h c).2⟩)
      (Cert.ReferenceIdeal.Hand.ref_run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
